-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1200000 32) (main_arg2 : FVec F S64x64 .f32) (main_arg3 : FVec F S64x64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S1x1200000 : Shape := ⟨2, ![1, 1200000]⟩
abbrev S1200000 : Shape := ⟨1, ![1200000]⟩
abbrev S_ : Shape := ⟨0, ![]⟩
abbrev S64x128 : Shape := ⟨2, ![64, 128]⟩
abbrev S128x128 : Shape := ⟨2, ![128, 128]⟩
abbrev S50000x128 : Shape := ⟨2, ![50000, 128]⟩
abbrev S5000x128 : Shape := ⟨2, ![5000, 128]⟩
abbrev S1200000x1 : Shape := ⟨2, ![1200000, 1]⟩
abbrev S1200000x64 : Shape := ⟨2, ![1200000, 64]⟩

abbrev nBuf : Space → Nat
  | .hbm => 75
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S_, .f32⟩
  | .hbm, ⟨10, _⟩ => ⟨S64x64, .f32⟩
  | .hbm, ⟨11, _⟩ => ⟨S64x128, .f32⟩
  | .hbm, ⟨12, _⟩ => ⟨S64x128, .f32⟩
  | .hbm, ⟨13, _⟩ => ⟨S128x128, .f32⟩
  | .hbm, ⟨14, _⟩ => ⟨S50000x128, .f32⟩
  | .hbm, ⟨15, _⟩ => ⟨S50000x128, .bf16⟩
  | .hbm, ⟨16, _⟩ => ⟨S100000x64, .bf16⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .bf16⟩
  | .hbm, ⟨26, _⟩ => ⟨S1200000x64, .f32⟩
  | .hbm, ⟨27, _⟩ => ⟨S_, .f32⟩
  | .hbm, ⟨28, _⟩ => ⟨S100000x64, .f32⟩
  | .hbm, ⟨29, _⟩ => ⟨S1200000x1, .i32⟩
  | .hbm, ⟨30, _⟩ => ⟨S100000x64, .f32⟩
  | .hbm, ⟨31, _⟩ => ⟨S_, .f32⟩
  | .hbm, ⟨32, _⟩ => ⟨S64x64, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S50000x128, .f32⟩
  | .hbm, ⟨37, _⟩ => ⟨S50000x128, .bf16⟩
  | .hbm, ⟨38, _⟩ => ⟨S100000x64, .bf16⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000x64, .bf16⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S_, .f32⟩
  | .hbm, ⟨54, _⟩ => ⟨S64x64, .f32⟩
  | .hbm, ⟨55, _⟩ => ⟨S64x128, .f32⟩
  | .hbm, ⟨56, _⟩ => ⟨S64x128, .f32⟩
  | .hbm, ⟨57, _⟩ => ⟨S128x128, .f32⟩
  | .hbm, ⟨58, _⟩ => ⟨S50000x128, .f32⟩
  | .hbm, ⟨59, _⟩ => ⟨S50000x128, .bf16⟩
  | .hbm, ⟨60, _⟩ => ⟨S100000x64, .bf16⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .bf16⟩
  | .hbm, ⟨70, _⟩ => ⟨S1200000x64, .f32⟩
  | .hbm, ⟨71, _⟩ => ⟨S_, .f32⟩
  | .hbm, ⟨72, _⟩ => ⟨S100000x64, .f32⟩
  | .hbm, ⟨73, _⟩ => ⟨S1200000x1, .i32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  shapeCasts_S50000x128_S100000x64 : S50000x128.ShapeCasts S100000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  dot_S5000x128_S128x128_S5000x128_1_0_0_1_n_n_wf : DotDims.WF S5000x128 S128x128 S5000x128 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .bf16 = 32 ∨ (Rect.block (s := S50000x128) S5000x128.size (cc2_transform_2 i) (hinb2_2 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_v8) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S100000x64, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The kernel program's run with its RESULT named.

  The program is seven segments: a stretch of host operations, the first packed matrix product (a pipelined
  region), a second stretch (the first aggregation and the next layer's packing), the second product, a third
  stretch, the third product, and a last stretch (the third aggregation). The frame certificate folds the
  TensorCore's buffer contents through those segments, `W0` (the launch) … `W7` (the return), and shows every
  weakly fair execution ends with every unscoped buffer at `W7`. Here that same run is posted with the result
  buffer read as well: it ends at `W7` of the result's reference, the five arguments as launched. What `W7`
  holds there is read, boundary by boundary, in the modules that follow.
-/
import proofs.«170709_j42339787604899_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.ValueRun

end
-- ==== Proof.HostFns.lean ====
/-
  The host operations around the three products, as named pure functions.

  `pack` views the 100000×64 node features as 50000×128 (two consecutive node rows per packed row: the same
  row-major order), `unpack` views a 50000×128 array as 100000×64 again. `blockDiag W` is the 128×128 matrix
  with `W` twice on the diagonal and zeros elsewhere, built by three concatenations. `aggregate s d h` is one
  message-passing step: gather the rows of `h` named by the (wrapped) source indices `s`, widen them to f32, and
  add each gathered row into the row of a zero array named by the target index `d`.
-/
import proofs.«170709_j42339787604899_2_alg».proof.Proof.Gen.KernelIdeal

noncomputable section

namespace Cert.KernelIdeal.HostFns

open Cert.KernelIdeal Cert.KernelIdeal.Gen Idealize.ShloMosaic

variable {F : FTy → Type} [FloatOps F]

/-- Row `r` of the 2×E edge list, as a vector of E indices (`r = 0`: sources). -/
def srcRow (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000
/-- The targets: row 1 of the edge list. -/
def dstRow (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- Two consecutive node rows per packed row. -/
def pack (x : (⟨S100000x64, .f32⟩ : BufTy).Contents (Elt F)) : (⟨S50000x128, .f32⟩ : BufTy).Contents (Elt F) :=
  shapeCast _ x shapeCasts_S100000x64_S50000x128
/-- A packed array viewed as node rows again. -/
def unpack (y : (⟨S50000x128, .bf16⟩ : BufTy).Contents (Elt F)) : (⟨S100000x64, .bf16⟩ : BufTy).Contents (Elt F) :=
  shapeCast _ y shapeCasts_S50000x128_S100000x64

/-- The 64×64 zero block. -/
def zeroBlock : (⟨S64x64, .f32⟩ : BufTy).Contents (Elt F) :=
  broadcastInDim S64x64 ![] bcast_S_S64x64 (constant S_ .f32 0x00000000#32)

/-- `W` twice on the diagonal of a 128×128 matrix, zero elsewhere. -/
def blockDiag (W : (⟨S64x64, .f32⟩ : BufTy).Contents (Elt F)) : (⟨S128x128, .f32⟩ : BufTy).Contents (Elt F) :=
  concatenate S128x128 0
    [⟨S64x128, concatenate S64x128 1 [⟨S64x64, W⟩, ⟨S64x64, zeroBlock⟩] concatenates_S64x64_S64x64_S64x128_d1⟩,
     ⟨S64x128, concatenate S64x128 1 [⟨S64x64, zeroBlock⟩, ⟨S64x64, W⟩] concatenates_S64x64_S64x64_S64x128_d1⟩]
    concatenates_S64x128_S64x128_S128x128_d0

/-- The source indices wrapped (a negative index counts from the end) and laid as a column. -/
def srcCol (s : (⟨S1200000, .i32⟩ : BufTy).Contents (Elt F)) : (⟨S1200000x1, .i32⟩ : BufTy).Contents (Elt F) :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 100000#32))) s)

/-- One message-passing step over bf16 rows, accumulated in f32. -/
def aggregate (s d : (⟨S1200000, .i32⟩ : BufTy).Contents (Elt F)) (h : (⟨S100000x64, .bf16⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 d)
    (extf .f32 (Host.gather gather_S100000x64_S1200000x1_S1200000x64_1_0_n_n_0_1_164 h (srcCol s)) bitsLt_bf16_f32)

end Cert.KernelIdeal.HostFns

end
-- ==== Proof.HostReads.lean ====
/-
  What each stretch of host operations leaves in the buffers the next segment reads.

  The buffer contents at the eight segment boundaries are a fold (`W0` … `W7`). A stretch of host operations
  writes each of its results once, as a pure function of buffers written before it; reading the fold at a result
  buffer therefore gives that function of the contents at the stretch's entry, and reading it at a buffer the
  stretch does not write gives the entry contents unchanged. Each stretch is first read from an ARBITRARY entry
  valuation `Wv` — the reading depends on the entry contents only through the buffers it names —, then instantiated
  at its boundary. The results are stated over the named host functions: the packed features and the block-diagonal weight each product
  is entered with, and the aggregation each product's output goes through.
-/
import proofs.«170709_j42339787604899_2_alg».proof.Proof.Gen.KernelIdeal.Frame
import proofs.«170709_j42339787604899_2_alg».proof.Proof.HostFns
import Idealize.ShloMosaic.Lib.StableHlo.Run

set_option maxRecDepth 16384

noncomputable section

namespace Cert.KernelIdeal.HostReads

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]

/-! ## Each stretch from an arbitrary entry valuation -/

section Stretches
variable (Wv : Valuation τ sig (Elt F))

theorem s0_v8 : StableHlo.after hostOps0 Wv (Proc.devRef .tc main_v8) = pack (Wv (Proc.devRef .tc main_arg0)) := by
  dsimp only [hostOps0]; after_results; rfl
theorem s0_v7 : StableHlo.after hostOps0 Wv (Proc.devRef .tc main_v7) = blockDiag (Wv (Proc.devRef .tc main_arg2)) := by
  dsimp only [hostOps0]; after_results; rfl
theorem s0_v1 : StableHlo.after hostOps0 Wv (Proc.devRef .tc main_v1) = srcRow (Wv (Proc.devRef .tc main_arg1)) := by
  dsimp only [hostOps0]; after_results; rfl
theorem s0_v3 : StableHlo.after hostOps0 Wv (Proc.devRef .tc main_v3) = dstRow (Wv (Proc.devRef .tc main_arg1)) := by
  dsimp only [hostOps0]; after_results; rfl
theorem s0_arg3 : StableHlo.after hostOps0 Wv (Proc.devRef .tc main_arg3) = Wv (Proc.devRef .tc main_arg3) := by
  dsimp only [hostOps0]; after_results
theorem s0_arg4 : StableHlo.after hostOps0 Wv (Proc.devRef .tc main_arg4) = Wv (Proc.devRef .tc main_arg4) := by
  dsimp only [hostOps0]; after_results

set_option maxHeartbeats 4000000 in
theorem s1_v26 : StableHlo.after hostOps1 Wv (Proc.devRef .tc main_v26) = pack (aggregate (Wv (Proc.devRef .tc main_v1)) (Wv (Proc.devRef .tc main_v3)) (unpack (Wv (Proc.devRef .tc main_v9)))) := by
  dsimp only [hostOps1]; after_results; rfl
set_option maxHeartbeats 4000000 in
theorem s1_v25 : StableHlo.after hostOps1 Wv (Proc.devRef .tc main_v25) = blockDiag (Wv (Proc.devRef .tc main_arg3)) := by
  dsimp only [hostOps1]; after_results; rfl
set_option maxHeartbeats 4000000 in
theorem s1_v1 : StableHlo.after hostOps1 Wv (Proc.devRef .tc main_v1) = Wv (Proc.devRef .tc main_v1) := by
  dsimp only [hostOps1]; after_results
set_option maxHeartbeats 4000000 in
theorem s1_v3 : StableHlo.after hostOps1 Wv (Proc.devRef .tc main_v3) = Wv (Proc.devRef .tc main_v3) := by
  dsimp only [hostOps1]; after_results
set_option maxHeartbeats 4000000 in
theorem s1_arg4 : StableHlo.after hostOps1 Wv (Proc.devRef .tc main_arg4) = Wv (Proc.devRef .tc main_arg4) := by
  dsimp only [hostOps1]; after_results

set_option maxHeartbeats 4000000 in
theorem s2_v44 : StableHlo.after hostOps2 Wv (Proc.devRef .tc main_v44) = pack (aggregate (Wv (Proc.devRef .tc main_v1)) (Wv (Proc.devRef .tc main_v3)) (unpack (Wv (Proc.devRef .tc main_v27)))) := by
  dsimp only [hostOps2]; after_results; rfl
set_option maxHeartbeats 4000000 in
theorem s2_v43 : StableHlo.after hostOps2 Wv (Proc.devRef .tc main_v43) = blockDiag (Wv (Proc.devRef .tc main_arg4)) := by
  dsimp only [hostOps2]; after_results; rfl
set_option maxHeartbeats 4000000 in
theorem s2_v1 : StableHlo.after hostOps2 Wv (Proc.devRef .tc main_v1) = Wv (Proc.devRef .tc main_v1) := by
  dsimp only [hostOps2]; after_results
set_option maxHeartbeats 4000000 in
theorem s2_v3 : StableHlo.after hostOps2 Wv (Proc.devRef .tc main_v3) = Wv (Proc.devRef .tc main_v3) := by
  dsimp only [hostOps2]; after_results

set_option maxHeartbeats 4000000 in
theorem s3_v57 : StableHlo.after hostOps3 Wv (Proc.devRef .tc main_v57) = aggregate (Wv (Proc.devRef .tc main_v1)) (Wv (Proc.devRef .tc main_v3)) (unpack (Wv (Proc.devRef .tc main_v45))) := by
  dsimp only [hostOps3]; after_results; rfl

end Stretches

/-! ## At the boundaries of the run -/

variable (m : (ℓ : Loc nD τ sig) → Buf (Elt F) ℓ) (ρ : Dev nD → PrngReg) (c : Dev nD)

/-- The first product is entered with the packed node features and the first weight on the block diagonal;
    the source and target index vectors are rows 0 and 1 of the edge list; the later weights are untouched. -/
theorem W1_v8 : W1 m ρ c (Proc.devRef .tc main_v8) = pack (m ((c : Thread nD τ).loc main_arg0)) := s0_v8 (W0 m ρ c)
theorem W1_v7 : W1 m ρ c (Proc.devRef .tc main_v7) = blockDiag (m ((c : Thread nD τ).loc main_arg2)) := s0_v7 (W0 m ρ c)
theorem W1_v1 : W1 m ρ c (Proc.devRef .tc main_v1) = srcRow (m ((c : Thread nD τ).loc main_arg1)) := s0_v1 (W0 m ρ c)
theorem W1_v3 : W1 m ρ c (Proc.devRef .tc main_v3) = dstRow (m ((c : Thread nD τ).loc main_arg1)) := s0_v3 (W0 m ρ c)
theorem W1_arg3 : W1 m ρ c (Proc.devRef .tc main_arg3) = m ((c : Thread nD τ).loc main_arg3) := s0_arg3 (W0 m ρ c)
theorem W1_arg4 : W1 m ρ c (Proc.devRef .tc main_arg4) = m ((c : Thread nD τ).loc main_arg4) := s0_arg4 (W0 m ρ c)

/-- A product region writes its three arrays only. -/
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_arg4 : W4 m ρ c (Proc.devRef .tc main_arg4) = W3 m ρ c (Proc.devRef .tc main_arg4) := W4_of_ne m ρ c main_arg4 (by decide)
theorem W6_v1 : W6 m ρ c (Proc.devRef .tc main_v1) = W5 m ρ c (Proc.devRef .tc main_v1) := W6_of_ne m ρ c main_v1 (by decide)
theorem W6_v3 : W6 m ρ c (Proc.devRef .tc main_v3) = W5 m ρ c (Proc.devRef .tc main_v3) := W6_of_ne m ρ c main_v3 (by decide)

/-- The second product is entered with the first product's output, aggregated and packed, and the second weight
    on the block diagonal. -/
theorem W3_v26 : W3 m ρ c (Proc.devRef .tc main_v26)
    = pack (aggregate (W2 m ρ c (Proc.devRef .tc main_v1)) (W2 m ρ c (Proc.devRef .tc main_v3)) (unpack (W2 m ρ c (Proc.devRef .tc main_v9)))) :=
  s1_v26 (W2 m ρ c)
theorem W3_v25 : W3 m ρ c (Proc.devRef .tc main_v25) = blockDiag (W2 m ρ c (Proc.devRef .tc main_arg3)) := s1_v25 (W2 m ρ c)
theorem W3_v1 : W3 m ρ c (Proc.devRef .tc main_v1) = W2 m ρ c (Proc.devRef .tc main_v1) := s1_v1 (W2 m ρ c)
theorem W3_v3 : W3 m ρ c (Proc.devRef .tc main_v3) = W2 m ρ c (Proc.devRef .tc main_v3) := s1_v3 (W2 m ρ c)
theorem W3_arg4 : W3 m ρ c (Proc.devRef .tc main_arg4) = W2 m ρ c (Proc.devRef .tc main_arg4) := s1_arg4 (W2 m ρ c)

/-- The third product likewise, from the second product's output and the third weight. -/
theorem W5_v44 : W5 m ρ c (Proc.devRef .tc main_v44)
    = pack (aggregate (W4 m ρ c (Proc.devRef .tc main_v1)) (W4 m ρ c (Proc.devRef .tc main_v3)) (unpack (W4 m ρ c (Proc.devRef .tc main_v27)))) :=
  s2_v44 (W4 m ρ c)
theorem W5_v43 : W5 m ρ c (Proc.devRef .tc main_v43) = blockDiag (W4 m ρ c (Proc.devRef .tc main_arg4)) := s2_v43 (W4 m ρ c)
theorem W5_v1 : W5 m ρ c (Proc.devRef .tc main_v1) = W4 m ρ c (Proc.devRef .tc main_v1) := s2_v1 (W4 m ρ c)
theorem W5_v3 : W5 m ρ c (Proc.devRef .tc main_v3) = W4 m ρ c (Proc.devRef .tc main_v3) := s2_v3 (W4 m ρ c)

/-- The result is the third product's output, aggregated. -/
theorem W7_v57 : W7 m ρ c (Proc.devRef .tc main_v57)
    = aggregate (W6 m ρ c (Proc.devRef .tc main_v1)) (W6 m ρ c (Proc.devRef .tc main_v3)) (unpack (W6 m ρ c (Proc.devRef .tc main_v45))) :=
  s3_v57 (W6 m ρ c)

end Cert.KernelIdeal.HostReads

end
-- ==== Proof.Payload.lean ====
/-
  What one grid point stores, read at an index.

  The body loads a 5000×128 block of the packed features and the whole 128×128 packed weight, rounds both to
  bf16, multiplies them on the matrix unit into a zero accumulator, rounds the product to bf16 and stores it. On
  the extended reals a change of format is the identity and the accumulator is `0`, so the stored block at
  (row `p`, lane `q`) is the plain sum over `k < 128` of block(p, k) · weight(k, q). The three layers' bodies
  are the same text, so one lemma serves all three.
-/
import proofs.«170709_j42339787604899_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The block product's dimension numbers: rows × contraction times contraction × lanes, no batch axis. -/
abbrev DD : DotDims S5000x128 S128x128 S5000x128 := dot_S5000x128_S128x128_S5000x128_1_0_0_1_n_n

theorem lhs0 (j : S5000x128.Idx) (q : DD.contr.Idx) : (DD.lhsIdx j q 0).val = (j 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs1 (j : S5000x128.Idx) (q : DD.contr.Idx) : (DD.lhsIdx j q 1).val = (q ⟨0, by decide⟩).val :=
  DD.lhsIdx_val_of_single rfl j q
theorem rhs0 (j : S5000x128.Idx) (q : DD.contr.Idx) : (DD.rhsIdx j q 0).val = (q ⟨0, by decide⟩).val :=
  DD.rhsIdx_val_of_single rfl j q
theorem rhs1 (j : S5000x128.Idx) (q : DD.contr.Idx) : (DD.rhsIdx j q 1).val = (j 1).val := by
  unfold DotDims.rhsIdx
  rw [dif_neg (show ¬(1 : Fin S128x128.rank) ∈ DD.rhsBatch by decide), dif_pos (show (1 : Fin S128x128.rank) ∈ DD.rhsNonContracting by decide)]
  rfl

/-- The left operand's element for output index `j` and contraction position `k`: row `j 0`, lane `k`. -/
abbrev lix (j : S5000x128.Idx) (k : Fin 128) : S5000x128.Idx := fun a => match a with
  | ⟨0, _⟩ => ⟨(j 0).val, (j 0).isLt⟩
  | ⟨1, _⟩ => ⟨k.val, k.isLt⟩
/-- The right operand's element: row `k`, lane `j 1`. -/
abbrev rix (j : S5000x128.Idx) (k : Fin 128) : S128x128.Idx := fun a => match a with
  | ⟨0, _⟩ => ⟨k.val, k.isLt⟩
  | ⟨1, _⟩ => ⟨(j 1).val, (j 1).isLt⟩

/-- A block product into the zero accumulator, at an index: the sum over the 128 contraction positions. -/
theorem blockProduct_apply (x0 : FVec Ideal S5000x128 .bf16) (x1 : FVec Ideal S128x128 .bf16) (j : S5000x128.Idx) :
    matmul DD none x0 x1 (constant S5000x128 .f32 0x00000000#32) j = ∑ k : Fin 128, x0 (lix j k) * x1 (rix j k) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx j ((contrEquiv1 DD 128 rfl rfl).symm k) = lix j k := funext fun a => Fin.ext (by
    match a with
    | ⟨0, _⟩ => exact lhs0 _ _
    | ⟨1, _⟩ => exact (lhs1 _ _).trans hk)
  have er : DD.rhsIdx j ((contrEquiv1 DD 128 rfl rfl).symm k) = rix j k := funext fun a => Fin.ext (by
    match a with
    | ⟨0, _⟩ => exact (rhs0 _ _).trans hk
    | ⟨1, _⟩ => exact rhs1 _ _)
  rw [el, er]

/-- The first layer's stored block at an index. -/
theorem pay0_apply (x0 : FVec Ideal S5000x128 .f32) (x1 : FVec Ideal S128x128 .f32) (j : S5000x128.Idx) :
    k0_pay1 (F := Ideal) x0 x1 j = ∑ k : Fin 128, x0 (lix j k) * x1 (rix j k) := by
  unfold k0_pay1
  show matmul DD none (truncf .bf16 (shapeCast S5000x128 x0 shapeCasts_S5000x128_S5000x128) bitsLt_bf16_f32)
      (truncf .bf16 (shapeCast S128x128 x1 shapeCasts_S128x128_S128x128) bitsLt_bf16_f32) (constant S5000x128 .f32 0x00000000#32) j = _
  refine (blockProduct_apply _ _ j).trans ?_
  refine Finset.sum_congr rfl fun k _ => ?_
  rw [shapeCast_self, shapeCast_self]
  rfl

/-- The second and third layers' bodies store the same function of their loads. -/
theorem pay1_eq : @k1_pay1 Ideal _ = @k0_pay1 Ideal _ := rfl
theorem pay2_eq : @k2_pay1 Ideal _ = @k0_pay1 Ideal _ := rfl

end Cert.KernelIdeal.Payload

end
-- ==== Proof.PackedProduct.lean ====
/-
  The packed product: the function each of the three regions leaves in its output array.

  For a packed feature array `a` (50000×128: two consecutive node rows per row) and a packed weight `w`
  (128×128), the product at (row `p`, lane `q`) is the sum over `k < 128` of a(p, k) · w(k, q), on the
  extended reals.
-/
import proofs.«170709_j42339787604899_2_alg».proof.KernelIdeal
import Idealize.ShloMosaic.PureOps.Ideal.Laws
import Idealize.ShloMosaic.Lib.ValueIdx

noncomputable section

namespace Cert.KernelIdeal.Packed

open Cert.KernelIdeal Idealize.ShloMosaic

/-- The feature element a product term reads: the output's row, contraction position `k`. -/
abbrev aix (i : S50000x128.Idx) (k : Fin 128) : S50000x128.Idx := fun a => match a with
  | ⟨0, _⟩ => ⟨(i 0).val, (i 0).isLt⟩
  | ⟨1, _⟩ => ⟨k.val, k.isLt⟩
/-- The weight element: row `k`, the output's lane. -/
abbrev wix (i : S50000x128.Idx) (k : Fin 128) : S128x128.Idx := fun a => match a with
  | ⟨0, _⟩ => ⟨k.val, k.isLt⟩
  | ⟨1, _⟩ => ⟨(i 1).val, (i 1).isLt⟩

/-- The packed product of a packed feature array and a packed weight. -/
def packedProduct (a : S50000x128.Idx → EReal) (w : S128x128.Idx → EReal) : S50000x128.Idx → EReal :=
  fun i => ∑ k : Fin 128, a (aix i k) * w (wix i k)

theorem packedProduct_apply (a : S50000x128.Idx → EReal) (w : S128x128.Idx → EReal) (i : S50000x128.Idx) :
    packedProduct a w i = ∑ k : Fin 128, a (aix i k) * w (wix i k) := rfl

end Cert.KernelIdeal.Packed

end
-- ==== Proof.Region0.lean ====
/-
  Layer 1's packed product as ONE function of the two arrays the region finds.

  The region runs the body at ten grid points; point `t` reads rows 5000·t … 5000·t + 4999 of the packed
  features (50000×128), the whole packed weight (128×128), and writes back the same rows of the output. Each
  stored block is the plain block product (the payload lemma), and the ten row blocks tile the output array, so
  after the region the output array is, index by index, the sum over `k < 128` of features(row, k) ·
  weight(k, lane) — whatever contents `V` the region was entered from.
-/
import proofs.«170709_j42339787604899_2_alg».proof.Proof.Gen.KernelIdeal.Frame
import proofs.«170709_j42339787604899_2_alg».proof.Proof.Payload
import proofs.«170709_j42339787604899_2_alg».proof.Proof.PackedProduct

set_option maxRecDepth 16384

noncomputable section

namespace Cert.KernelIdeal.Region0

open Cert.KernelIdeal Cert.KernelIdeal.Gen Cert.KernelIdeal.Payload Cert.KernelIdeal.Packed
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the features' and the output's block index is the point
    itself on the row axis and 0 on the lane axis; the weight's block index is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An element of the features' block at point `t` is the array's element 5000·t rows further down. -/
theorem read_features (c : Dev nD) (t : Fin cfg0.N) (y : S5000x128.Idx) (i : S50000x128.Idx)
    (h0 : (i 0).val = t.val * 5000 + (y 0).val) (h1 : (i 1).val = (y 1).val) :
    iblk0 V c 0 t y = V c main_v8 i := by
  show V c main_v8 (((cfg0.win 0).blk t).view.emb y) = V c main_v8 i
  refine congrArg _ (funext fun a => Fin.ext ?_)
  obtain ⟨e0, e1, e2, e3, e4, e5⟩ := idx_facts t
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight's block at every point is the whole array. -/
theorem read_weight (c : Dev nD) (t : Fin cfg0.N) (y : S128x128.Idx) (i : S128x128.Idx)
    (h0 : (i 0).val = (y 0).val) (h1 : (i 1).val = (y 1).val) :
    iblk0 V c 1 t y = V c main_v7 i := by
  show V c main_v7 (((cfg0.win 1).blk t).view.emb y) = V c main_v7 i
  refine congrArg _ (funext fun a => Fin.ext ?_)
  obtain ⟨e0, e1, e2, e3, e4, e5⟩ := idx_facts t
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point `t` writes back is block `t` of the packed product of the two arrays. -/
theorem flushed_eq (c : Dev nD) (t : Fin cfg0.N) :
    (dat0 (F := Ideal) V c).flushed 2 t
      = ((cfg0.win 2).blk t).view.read (Elt Ideal) (packedProduct (V c main_v8) (V c main_v7)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay0_apply (iblk0 V c 0 t) (iblk0 V c 1 t) j).trans ?_
  show _ = packedProduct (V c main_v8) (V c main_v7) (((cfg0.win 2).blk t).view.emb j)
  rw [packedProduct_apply]
  have hr : ((((cfg0.win 2).blk t).view.emb j) 0).val = t.val * 5000 + (j 0).val := by
    show win0_2.index t (0 : Fin 2) * 5000 + 1 * (j 0).val = _; omega
  have hl : ((((cfg0.win 2).blk t).view.emb j) 1).val = (j 1).val := by
    show win0_2.index t (1 : Fin 2) * 128 + 1 * (j 1).val = _; omega
  refine Finset.sum_congr rfl fun k _ => ?_
  rw [read_features V c t (lix j k) (aix (((cfg0.win 2).blk t).view.emb j) k) hr rfl,
    read_weight V c t (rix j k) (wix (((cfg0.win 2).blk t).view.emb j) k) rfl hl]

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v9).slice (win0_2.rect t)).set ↔ _
  rw [View.set_slice_whole, Rect.mem_set_unit]
  exact Iff.rfl

/-- The ten row blocks cover the output array: row `r` lies in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  refine ⟨⟨(i 0).val / 5000, hlt⟩, flush0_2 _, ?_⟩
  rw [mem_blk]
  obtain ⟨e0, e1, e2, e3, e4, e5⟩ := idx_facts ⟨(i 0).val / 5000, hlt⟩
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- After the region its output array is the packed product of the features and the weight it was entered with. -/
theorem final (c : Dev nD) :
    (dat0 (F := Ideal) V c).arrAt 2 cfg0.N = packedProduct (V c main_v8) (V c main_v7) :=
  (dat0 V c).arrAt_eq_of_cover 2 _ (fun t _ => flushed_eq V c t) cover

end Cert.KernelIdeal.Region0

end
-- ==== Proof.Region1.lean ====
/-
  Layer 2's packed product as ONE function of the two arrays the region finds.

  The region runs the body at ten grid points; point `t` reads rows 5000·t … 5000·t + 4999 of the packed
  features (50000×128), the whole packed weight (128×128), and writes back the same rows of the output. Each
  stored block is the plain block product (the payload lemma), and the ten row blocks tile the output array, so
  after the region the output array is, index by index, the sum over `k < 128` of features(row, k) ·
  weight(k, lane) — whatever contents `V` the region was entered from.
-/
import proofs.«170709_j42339787604899_2_alg».proof.Proof.Gen.KernelIdeal.Frame
import proofs.«170709_j42339787604899_2_alg».proof.Proof.Payload
import proofs.«170709_j42339787604899_2_alg».proof.Proof.PackedProduct

set_option maxRecDepth 16384

noncomputable section

namespace Cert.KernelIdeal.Region1

open Cert.KernelIdeal Cert.KernelIdeal.Gen Cert.KernelIdeal.Payload Cert.KernelIdeal.Packed
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the features' and the output's block index is the point
    itself on the row axis and 0 on the lane axis; the weight's block index is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An element of the features' block at point `t` is the array's element 5000·t rows further down. -/
theorem read_features (c : Dev nD) (t : Fin cfg1.N) (y : S5000x128.Idx) (i : S50000x128.Idx)
    (h0 : (i 0).val = t.val * 5000 + (y 0).val) (h1 : (i 1).val = (y 1).val) :
    iblk1 V c 0 t y = V c main_v26 i := by
  show V c main_v26 (((cfg1.win 0).blk t).view.emb y) = V c main_v26 i
  refine congrArg _ (funext fun a => Fin.ext ?_)
  obtain ⟨e0, e1, e2, e3, e4, e5⟩ := idx_facts t
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The weight's block at every point is the whole array. -/
theorem read_weight (c : Dev nD) (t : Fin cfg1.N) (y : S128x128.Idx) (i : S128x128.Idx)
    (h0 : (i 0).val = (y 0).val) (h1 : (i 1).val = (y 1).val) :
    iblk1 V c 1 t y = V c main_v25 i := by
  show V c main_v25 (((cfg1.win 1).blk t).view.emb y) = V c main_v25 i
  refine congrArg _ (funext fun a => Fin.ext ?_)
  obtain ⟨e0, e1, e2, e3, e4, e5⟩ := idx_facts t
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- What point `t` writes back is block `t` of the packed product of the two arrays. -/
theorem flushed_eq (c : Dev nD) (t : Fin cfg1.N) :
    (dat1 (F := Ideal) V c).flushed 2 t
      = ((cfg1.win 2).blk t).view.read (Elt Ideal) (packedProduct (V c main_v26) (V c main_v25)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay1_eq]
  obtain ⟨e0, e1, e2, e3, e4, e5⟩ := idx_facts t
  funext j
  refine (pay0_apply (iblk1 V c 0 t) (iblk1 V c 1 t) j).trans ?_
  show _ = packedProduct (V c main_v26) (V c main_v25) (((cfg1.win 2).blk t).view.emb j)
  rw [packedProduct_apply]
  have hr : ((((cfg1.win 2).blk t).view.emb j) 0).val = t.val * 5000 + (j 0).val := by
    show win1_2.index t (0 : Fin 2) * 5000 + 1 * (j 0).val = _; omega
  have hl : ((((cfg1.win 2).blk t).view.emb j) 1).val = (j 1).val := by
    show win1_2.index t (1 : Fin 2) * 128 + 1 * (j 1).val = _; omega
  refine Finset.sum_congr rfl fun k _ => ?_
  rw [read_features V c t (lix j k) (aix (((cfg1.win 2).blk t).view.emb j) k) hr rfl,
    read_weight V c t (rix j k) (wix (((cfg1.win 2).blk t).view.emb j) k) rfl hl]

/-- An index of the output array is in point `t`'s block iff each coordinate is in the block's range. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v27).slice (win1_2.rect t)).set ↔ _
  rw [View.set_slice_whole, Rect.mem_set_unit]
  exact Iff.rfl

/-- The ten row blocks cover the output array: row `r` lies in the block of point `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_2 _, ?_⟩
  rw [mem_blk]
  obtain ⟨e0, e1, e2, e3, e4, e5⟩ := idx_facts ⟨(i 0).val / 5000, hlt⟩
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    rw [e5]; omega

/-- After the region its output array is the packed product of the features and the weight it was entered with. -/
theorem final (c : Dev nD) :
    (dat1 (F := Ideal) V c).arrAt 2 cfg1.N = packedProduct (V c main_v26) (V c main_v25) :=
  (dat1 V c).arrAt_eq_of_cover 2 _ (fun t _ => flushed_eq V c t) cover

end Cert.KernelIdeal.Region1

end
-- ==== Proof.Region2.lean ====
/-
  Layer 3's packed product as ONE function of the two arrays the region finds.

  The region runs the body at ten grid points; point `t` reads rows 5000·t … 5000·t + 4999 of the packed
  features (50000×128), the whole packed weight (128×128), and writes back the same rows of the output. Each
  stored block is the plain block product (the payload lemma), and the ten row blocks tile the output array, so
  after the region the output array is, index by index, the sum over `k < 128` of features(row, k) ·
  weight(k, lane) — whatever contents `V` the region was entered from.
-/
import proofs.«170709_j42339787604899_2_alg».proof.Proof.Gen.KernelIdeal.Frame
import proofs.«170709_j42339787604899_2_alg».proof.Proof.Payload
import proofs.«170709_j42339787604899_2_alg».proof.Proof.PackedProduct

set_option maxRecDepth 16384

noncomputable section

namespace Cert.KernelIdeal.Region2

open Cert.KernelIdeal Cert.KernelIdeal.Gen Cert.KernelIdeal.Payload Cert.KernelIdeal.Packed
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the features' and the output's block index is the point
    itself on the row axis and 0 on the lane axis; the weight's block index is (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An element of the features' block at point `t` is the array's element 5000·t rows further down. -/
theorem read_features (c : Dev nD) (t : Fin cfg2.N) (y : S5000x128.Idx) (i : S50000x128.Idx)
    (h0 : (i 0).val = t.val * 5000 + (y 0).val) (h1 : (i 1).val = (y 1).val) :
    iblk2 V c 0 t y = V c main_v44 i := by
  show V c main_v44 (((cfg2.win 0).blk t).view.emb y) = V c main_v44 i
  refine congrArg _ (funext fun a => Fin.ext ?_)
  obtain ⟨e0, e1, e2, e3, e4, e5⟩ := idx_facts t
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weight's block at every point is the whole array. -/
theorem read_weight (c : Dev nD) (t : Fin cfg2.N) (y : S128x128.Idx) (i : S128x128.Idx)
    (h0 : (i 0).val = (y 0).val) (h1 : (i 1).val = (y 1).val) :
    iblk2 V c 1 t y = V c main_v43 i := by
  show V c main_v43 (((cfg2.win 1).blk t).view.emb y) = V c main_v43 i
  refine congrArg _ (funext fun a => Fin.ext ?_)
  obtain ⟨e0, e1, e2, e3, e4, e5⟩ := idx_facts t
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- What point `t` writes back is block `t` of the packed product of the two arrays. -/
theorem flushed_eq (c : Dev nD) (t : Fin cfg2.N) :
    (dat2 (F := Ideal) V c).flushed 2 t
      = ((cfg2.win 2).blk t).view.read (Elt Ideal) (packedProduct (V c main_v44) (V c main_v43)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay2_eq]
  obtain ⟨e0, e1, e2, e3, e4, e5⟩ := idx_facts t
  funext j
  refine (pay0_apply (iblk2 V c 0 t) (iblk2 V c 1 t) j).trans ?_
  show _ = packedProduct (V c main_v44) (V c main_v43) (((cfg2.win 2).blk t).view.emb j)
  rw [packedProduct_apply]
  have hr : ((((cfg2.win 2).blk t).view.emb j) 0).val = t.val * 5000 + (j 0).val := by
    show win2_2.index t (0 : Fin 2) * 5000 + 1 * (j 0).val = _; omega
  have hl : ((((cfg2.win 2).blk t).view.emb j) 1).val = (j 1).val := by
    show win2_2.index t (1 : Fin 2) * 128 + 1 * (j 1).val = _; omega
  refine Finset.sum_congr rfl fun k _ => ?_
  rw [read_features V c t (lix j k) (aix (((cfg2.win 2).blk t).view.emb j) k) hr rfl,
    read_weight V c t (rix j k) (wix (((cfg2.win 2).blk t).view.emb j) k) rfl hl]

/-- An index of the output array is in point `t`'s block iff each coordinate is in the block's range. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v45).slice (win2_2.rect t)).set ↔ _
  rw [View.set_slice_whole, Rect.mem_set_unit]
  exact Iff.rfl

/-- The ten row blocks cover the output array: row `r` lies in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have hlt : (i 0).val / 5000 < cfg2.N := by rw [hN]; omega
  refine ⟨⟨(i 0).val / 5000, hlt⟩, flush2_2 _, ?_⟩
  rw [mem_blk]
  obtain ⟨e0, e1, e2, e3, e4, e5⟩ := idx_facts ⟨(i 0).val / 5000, hlt⟩
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    rw [e5]; omega

/-- After the region its output array is the packed product of the features and the weight it was entered with. -/
theorem final (c : Dev nD) :
    (dat2 (F := Ideal) V c).arrAt 2 cfg2.N = packedProduct (V c main_v44) (V c main_v43) :=
  (dat2 V c).arrAt_eq_of_cover 2 _ (fun t _ => flushed_eq V c t) cover

end Cert.KernelIdeal.Region2

end
-- ==== Proof.BlockDiag.lean ====
/-
  The one algebraic law of this certificate, on the extended reals.

  Two consecutive rows of the node features are packed into one row of 128 lanes, and the 64×64 weight is
  placed twice on the diagonal of a 128×128 matrix whose other two blocks are zero. A column of that matrix is
  zero outside one of its two halves, so the 128-term sum of a packed row against it keeps only the 64 products
  of that half: every other product is `a · 0 = 0`, which holds for EVERY extended real `a` (also `±∞`), and
  adding `0` changes nothing. No finiteness is used.
-/
import Idealize.ShloMosaic.PureOps.Ideal.Laws

namespace Cert.Gcn

/-- A sum over 128 positions is the sum over the first 64 plus the sum over the last 64. -/
theorem sum_halves (f : Fin 128 → EReal) :
    ∑ k : Fin 128, f k = ∑ k : Fin 64, f ⟨k.val, by omega⟩ + ∑ k : Fin 64, f ⟨64 + k.val, by omega⟩ :=
  Fin.sum_univ_add (a := 64) (b := 64) (fun k : Fin (64 + 64) => f k)

/-- A packed row `a` against a column `w` that is `g` on half `b` and zero on the other half: the sum is the
    64-term sum of that half of the row against `g`. -/
theorem sum_blockdiag (a w : Fin 128 → EReal) (b : Fin 2) (g : Fin 64 → EReal)
    (hlo : ∀ k : Fin 64, w ⟨k.val, by omega⟩ = if b.val = 0 then g k else 0)
    (hhi : ∀ k : Fin 64, w ⟨64 + k.val, by omega⟩ = if b.val = 1 then g k else 0) :
    ∑ k : Fin 128, a k * w k = ∑ k : Fin 64, a ⟨64 * b.val + k.val, by omega⟩ * g k := by
  rw [sum_halves]
  obtain ⟨bv, hb⟩ := b
  have hcases : bv = 0 ∨ bv = 1 := by omega
  rcases hcases with rfl | rfl
  · have z : ∑ k : Fin 64, a ⟨64 + k.val, by omega⟩ * w ⟨64 + k.val, by omega⟩ = 0 :=
      Finset.sum_eq_zero fun k _ => by rw [hhi k, if_neg (by show ¬ (0 : ℕ) = 1; decide), mul_zero]
    rw [z, add_zero]
    refine Finset.sum_congr rfl fun k _ => ?_
    rw [hlo k, if_pos rfl]
    exact congrArg (fun t => a t * g k) (Fin.ext (by show k.val = 64 * 0 + k.val; omega))
  · have z : ∑ k : Fin 64, a ⟨k.val, by omega⟩ * w ⟨k.val, by omega⟩ = 0 :=
      Finset.sum_eq_zero fun k _ => by rw [hlo k, if_neg (by show ¬ (1 : ℕ) = 0; decide), mul_zero]
    rw [z, zero_add]
    refine Finset.sum_congr rfl fun k _ => ?_
    rw [hhi k, if_pos rfl]
    exact congrArg (fun t => a t * g k) (Fin.ext (by show 64 + k.val = 64 * 1 + k.val; omega))

end Cert.Gcn
-- ==== Proof.Linear.lean ====
/-
  The packed product of the packed features with the block-diagonal weight, unpacked, IS the plain product.

  Node row `r` sits in packed row `r / 2`, in lanes `64·(r % 2) … 64·(r % 2) + 63` (both views list the same
  elements in row-major order). Column `64·b + c` of the block-diagonal matrix is `W`'s column `c` in rows
  `64·b … 64·b + 63` and zero in the other 64 rows. So the 128-term sum for (r, c) keeps exactly the 64 products
  x(r, k) · W(k, c): the other 64 are `x(r', k) · 0 = 0` (`r'` the other node of the pair), an identity of the
  extended reals that needs nothing of `x(r', k)`.
-/
import proofs.«170709_j42339787604899_2_alg».proof.Proof.HostFns
import proofs.«170709_j42339787604899_2_alg».proof.Proof.PackedProduct
import proofs.«170709_j42339787604899_2_alg».proof.Proof.BlockDiag
import Idealize.ShloMosaic.Lib.Pipeline.Value
import Idealize.ShloMosaic.Lib.ValueIdx
import Idealize.ShloMosaic.Lib.IdealHost

noncomputable section

namespace Cert.KernelIdeal.Linear

open Cert.KernelIdeal Cert.KernelIdeal.Gen Cert.KernelIdeal.HostFns Cert.KernelIdeal.Packed Cert.Gcn
open Idealize.ShloMosaic Idealize.ShloMosaic.ValueIdx

/-- Node `r`, feature `k`. -/
abbrev nodeIx (r : Fin 100000) (k : Fin 64) : S100000x64.Idx := fun a => match a with
  | ⟨0, _⟩ => r
  | ⟨1, _⟩ => k
/-- Row `k`, column `q` of a 64×64 weight. -/
abbrev wIx (k q : Fin 64) : S64x64.Idx := fun a => match a with
  | ⟨0, _⟩ => k
  | ⟨1, _⟩ => q
/-- Row `k`, lane `q` of one half (64×128) of the block-diagonal matrix. -/
abbrev halfIx (k : Fin 64) (q : Fin 128) : S64x128.Idx := fun a => match a with
  | ⟨0, _⟩ => k
  | ⟨1, _⟩ => q

/-- The plain product of the node features with a weight: (r, c) ↦ Σₖ x(r, k) · W(k, c). -/
def lin (x : S100000x64.Idx → EReal) (W : S64x64.Idx → EReal) : S100000x64.Idx → EReal :=
  fun i => ∑ k : Fin 64, x (nodeIx ⟨(i 0).val, (i 0).isLt⟩ k) * W (wIx k ⟨(i 1).val, (i 1).isLt⟩)

/-- Packing keeps the row-major position. -/
theorem pack_apply (x : S100000x64.Idx → EReal) (j : S50000x128.Idx) (i : S100000x64.Idx)
    (h : (i 0).val * 64 + (i 1).val = (j 0).val * 128 + (j 1).val) : pack (F := Ideal) x j = x i := by
  unfold pack
  exact shapeCast_apply x shapeCasts_S100000x64_S50000x128 j i
    (by rewrite [Shape.rowMajor_val_two, Shape.rowMajor_val_two]; exact h)

/-- So does unpacking. -/
theorem unpack_apply (y : S50000x128.Idx → EReal) (i : S100000x64.Idx) (j : S50000x128.Idx)
    (h : (j 0).val * 128 + (j 1).val = (i 0).val * 64 + (i 1).val) : unpack (F := Ideal) y i = y j := by
  unfold unpack
  exact shapeCast_apply y shapeCasts_S50000x128_S100000x64 i j
    (by rewrite [Shape.rowMajor_val_two, Shape.rowMajor_val_two]; exact h)

/-- The zero block is zero everywhere. -/
theorem zeroBlock_apply (i : S64x64.Idx) : zeroBlock (F := Ideal) i = 0 := by
  unfold zeroBlock
  rw [broadcastInDim_scalar_apply, constant_apply, Ideal.ofBits_zero_f32]

/-- The block-diagonal matrix in its upper left block is `W` … -/
theorem blockDiag_lo_lo (W : S64x64.Idx → EReal) (j : S128x128.Idx) (k q : Fin 64)
    (h0 : (j 0).val = k.val) (h1 : (j 1).val = q.val) : blockDiag (F := Ideal) W j = W (wIx k q) := by
  unfold blockDiag
  refine (concatenate_pair_apply_left (0 : Fin S128x128.rank) _ _ concatenates_S64x128_S64x128_S128x128_d0 j rfl
    (halfIx k ⟨(j 1).val, (j 1).isLt⟩) ?_).trans ?_
  · intro b
    match b with
    | ⟨0, _⟩ => exact h0.symm
    | ⟨1, _⟩ => rfl
  refine concatenate_pair_apply_left (1 : Fin S64x128.rank) _ _ concatenates_S64x64_S64x64_S64x128_d1
    (halfIx k ⟨(j 1).val, (j 1).isLt⟩) rfl (wIx k q) ?_
  intro b
  match b with
  | ⟨0, _⟩ => rfl
  | ⟨1, _⟩ => exact h1.symm

/-- … zero in its upper right block … -/
theorem blockDiag_lo_hi (W : S64x64.Idx → EReal) (j : S128x128.Idx) (k q : Fin 64)
    (h0 : (j 0).val = k.val) (h1 : (j 1).val = 64 + q.val) : blockDiag (F := Ideal) W j = 0 := by
  unfold blockDiag
  refine (concatenate_pair_apply_left (0 : Fin S128x128.rank) _ _ concatenates_S64x128_S64x128_S128x128_d0 j rfl
    (halfIx k ⟨(j 1).val, (j 1).isLt⟩) ?_).trans ?_
  · intro b
    match b with
    | ⟨0, _⟩ => exact h0.symm
    | ⟨1, _⟩ => rfl
  refine (concatenate_pair_apply_right (1 : Fin S64x128.rank) _ _ concatenates_S64x64_S64x64_S64x128_d1
    (halfIx k ⟨(j 1).val, (j 1).isLt⟩) rfl rfl (wIx k q) ?_ ?_).trans (zeroBlock_apply _)
  · intro b hb
    match b with
    | ⟨0, _⟩ => rfl
    | ⟨1, _⟩ => exact absurd rfl hb
  · show q.val + 64 = (j 1).val
    omega

/-- … zero in its lower left block … -/
theorem blockDiag_hi_lo (W : S64x64.Idx → EReal) (j : S128x128.Idx) (k q : Fin 64)
    (h0 : (j 0).val = 64 + k.val) (h1 : (j 1).val = q.val) : blockDiag (F := Ideal) W j = 0 := by
  unfold blockDiag
  refine (concatenate_pair_apply_right (0 : Fin S128x128.rank) _ _ concatenates_S64x128_S64x128_S128x128_d0 j rfl rfl
    (halfIx k ⟨(j 1).val, (j 1).isLt⟩) ?_ ?_).trans ?_
  · intro b hb
    match b with
    | ⟨0, _⟩ => exact absurd rfl hb
    | ⟨1, _⟩ => rfl
  · show k.val + 64 = (j 0).val
    omega
  refine (concatenate_pair_apply_left (1 : Fin S64x128.rank) _ _ concatenates_S64x64_S64x64_S64x128_d1
    (halfIx k ⟨(j 1).val, (j 1).isLt⟩) rfl (wIx k q) ?_).trans (zeroBlock_apply _)
  intro b
  match b with
  | ⟨0, _⟩ => rfl
  | ⟨1, _⟩ => exact h1.symm

/-- … and `W` again in its lower right block. -/
theorem blockDiag_hi_hi (W : S64x64.Idx → EReal) (j : S128x128.Idx) (k q : Fin 64)
    (h0 : (j 0).val = 64 + k.val) (h1 : (j 1).val = 64 + q.val) : blockDiag (F := Ideal) W j = W (wIx k q) := by
  unfold blockDiag
  refine (concatenate_pair_apply_right (0 : Fin S128x128.rank) _ _ concatenates_S64x128_S64x128_S128x128_d0 j rfl rfl
    (halfIx k ⟨(j 1).val, (j 1).isLt⟩) ?_ ?_).trans ?_
  · intro b hb
    match b with
    | ⟨0, _⟩ => exact absurd rfl hb
    | ⟨1, _⟩ => rfl
  · show k.val + 64 = (j 0).val
    omega
  refine concatenate_pair_apply_right (1 : Fin S64x128.rank) _ _ concatenates_S64x64_S64x64_S64x128_d1
    (halfIx k ⟨(j 1).val, (j 1).isLt⟩) rfl rfl (wIx k q) ?_ ?_
  · intro b hb
    match b with
    | ⟨0, _⟩ => rfl
    | ⟨1, _⟩ => exact absurd rfl hb
  · show q.val + 64 = (j 1).val
    omega

/-- THE LAYER'S LINEAR PART: the packed product with the block-diagonal weight, unpacked, is `x · W`. -/
theorem packed_eq_lin (x : S100000x64.Idx → EReal) (W : S64x64.Idx → EReal) :
    unpack (F := Ideal) (packedProduct (pack (F := Ideal) x) (blockDiag (F := Ideal) W)) = lin x W := by
  funext i
  have hr : (i 0).val < 100000 := (i 0).isLt
  have hc : (i 1).val < 64 := (i 1).isLt
  -- the packed position of (r, c): row r / 2, lane 64·(r % 2) + c
  obtain ⟨b, hb⟩ : ∃ b : Fin 2, b.val = (i 0).val % 2 := ⟨⟨(i 0).val % 2, by omega⟩, rfl⟩
  have hb2 : b.val < 2 := b.isLt
  obtain ⟨j, hj0, hj1⟩ : ∃ j : S50000x128.Idx, (j 0).val = (i 0).val / 2 ∧ (j 1).val = 64 * b.val + (i 1).val :=
    ⟨fun a => match a with
      | ⟨0, _⟩ => ⟨(i 0).val / 2, by show (i 0).val / 2 < 50000; omega⟩
      | ⟨1, _⟩ => ⟨64 * b.val + (i 1).val, by show 64 * b.val + (i 1).val < 128; omega⟩, rfl, rfl⟩
  rw [unpack_apply _ i j (by omega), packedProduct_apply]
  refine (sum_blockdiag (fun k => pack (F := Ideal) x (aix j k)) (fun k => blockDiag (F := Ideal) W (wix j k)) b
    (fun k => W (wIx k ⟨(i 1).val, (i 1).isLt⟩)) ?_ ?_).trans ?_
  · intro k
    have hk : k.val < 64 := k.isLt
    by_cases h : b.val = 0
    · rw [if_pos h]
      exact blockDiag_lo_lo W _ k ⟨(i 1).val, (i 1).isLt⟩ rfl (by show (j 1).val = (i 1).val; omega)
    · rw [if_neg h]
      exact blockDiag_lo_hi W _ k ⟨(i 1).val, (i 1).isLt⟩ rfl (by show (j 1).val = 64 + (i 1).val; omega)
  · intro k
    have hk : k.val < 64 := k.isLt
    by_cases h : b.val = 1
    · rw [if_pos h]
      exact blockDiag_hi_hi W _ k ⟨(i 1).val, (i 1).isLt⟩ rfl (by show (j 1).val = 64 + (i 1).val; omega)
    · rw [if_neg h]
      exact blockDiag_hi_lo W _ k ⟨(i 1).val, (i 1).isLt⟩ rfl (by show (j 1).val = (i 1).val; omega)
  · refine Finset.sum_congr rfl fun k _ => ?_
    have hk : k.val < 64 := k.isLt
    show pack (F := Ideal) x (aix j ⟨64 * b.val + k.val, _⟩) * W _ = x _ * W _
    rw [pack_apply x _ (nodeIx ⟨(i 0).val, (i 0).isLt⟩ k)
      (by show (i 0).val * 64 + k.val = (j 0).val * 128 + (64 * b.val + k.val); omega)]

/-- ONE LAYER: the plain product with the weight, then the aggregation over the edges. -/
def layer (s d : (⟨S1200000, .i32⟩ : BufTy).Contents (Elt Ideal)) (x : S100000x64.Idx → EReal) (W : S64x64.Idx → EReal) :
    S100000x64.Idx → EReal :=
  aggregate (F := Ideal) s d (lin x W)

/-- The kernel's form of a layer — pack, multiply by the block-diagonal weight, unpack, aggregate — is that layer. -/
theorem packed_layer (s d : (⟨S1200000, .i32⟩ : BufTy).Contents (Elt Ideal)) (x : S100000x64.Idx → EReal) (W : S64x64.Idx → EReal) :
    aggregate (F := Ideal) s d (unpack (F := Ideal) (packedProduct (pack (F := Ideal) x) (blockDiag (F := Ideal) W))) = layer s d x W := by
  rw [packed_eq_lin]; rfl

end Cert.KernelIdeal.Linear

end
-- ==== Proof.Chain.lean ====
/-
  The kernel program's result, boundary by boundary.

  Through the fold of buffer contents: the first product is entered with the packed features and the first
  weight on the block diagonal, and leaves their packed product (Region0); the second stretch unpacks it,
  aggregates it over the edges and packs the outcome — which is layer 1 of the features, packed (the packed
  product with a block-diagonal weight, unpacked, is the plain product) — beside the second weight on the block
  diagonal; and so on through the second and third products. The source and target index vectors are computed once
  by the first stretch and are never written again, so every aggregation reads the same two vectors. The result
  buffer ends holding the three layers composed.
-/
import proofs.«170709_j42339787604899_2_alg».proof.Proof.HostReads
import proofs.«170709_j42339787604899_2_alg».proof.Proof.Region0
import proofs.«170709_j42339787604899_2_alg».proof.Proof.Region1
import proofs.«170709_j42339787604899_2_alg».proof.Proof.Region2
import proofs.«170709_j42339787604899_2_alg».proof.Proof.Linear

set_option maxRecDepth 16384

noncomputable section

namespace Cert.KernelIdeal.Chain

open Cert.KernelIdeal Cert.KernelIdeal.Gen Cert.KernelIdeal.HostFns Cert.KernelIdeal.Packed Cert.KernelIdeal.Linear
open Cert.KernelIdeal.HostReads
open Idealize.ShloMosaic Idealize.ShloMosaic.TcCoe Idealize.SL.Sem

variable (m : (ℓ : Loc nD τ sig) → Buf (Elt Ideal) ℓ) (ρ : Dev nD → PrngReg) (c : Dev nD)

/-- The source indices of the launch's edge list. -/
abbrev srcs : (⟨S1200000, .i32⟩ : BufTy).Contents (Elt Ideal) := srcRow (F := Ideal) (m ((c : Thread nD τ).loc main_arg1))
/-- Its target indices. -/
abbrev dsts : (⟨S1200000, .i32⟩ : BufTy).Contents (Elt Ideal) := dstRow (F := Ideal) (m ((c : Thread nD τ).loc main_arg1))

/-- The features after layer 1, after layer 2, and after layer 3. -/
abbrev x1 : S100000x64.Idx → EReal := layer (srcs m c) (dsts m c) (m ((c : Thread nD τ).loc main_arg0)) (m ((c : Thread nD τ).loc main_arg2))
abbrev x2 : S100000x64.Idx → EReal := layer (srcs m c) (dsts m c) (x1 m c) (m ((c : Thread nD τ).loc main_arg3))
abbrev x3 : S100000x64.Idx → EReal := layer (srcs m c) (dsts m c) (x2 m c) (m ((c : Thread nD τ).loc main_arg4))

/-! ## The index vectors at the three boundaries where an aggregation reads them -/

theorem src2 : W2 m ρ c (Proc.devRef .tc main_v1) = srcs m c := (W2_v1 m ρ c).trans (W1_v1 m ρ c)
theorem dst2 : W2 m ρ c (Proc.devRef .tc main_v3) = dsts m c := (W2_v3 m ρ c).trans (W1_v3 m ρ c)
theorem src4 : W4 m ρ c (Proc.devRef .tc main_v1) = srcs m c := (W4_v1 m ρ c).trans ((W3_v1 m ρ c).trans (src2 m ρ c))
theorem dst4 : W4 m ρ c (Proc.devRef .tc main_v3) = dsts m c := (W4_v3 m ρ c).trans ((W3_v3 m ρ c).trans (dst2 m ρ c))
theorem src6 : W6 m ρ c (Proc.devRef .tc main_v1) = srcs m c := (W6_v1 m ρ c).trans ((W5_v1 m ρ c).trans (src4 m ρ c))
theorem dst6 : W6 m ρ c (Proc.devRef .tc main_v3) = dsts m c := (W6_v3 m ρ c).trans ((W5_v3 m ρ c).trans (dst4 m ρ c))

/-! ## Layer 1 -/

/-- The first product's output. -/
theorem out1 : W2 m ρ c (Proc.devRef .tc main_v9) = packedProduct (pack (F := Ideal) (m ((c : Thread nD τ).loc main_arg0))) (blockDiag (F := Ideal) (m ((c : Thread nD τ).loc main_arg2))) := by
  refine ((W2_arr m ρ c 2).trans (Region0.final (V1 m ρ) c)).trans ?_
  show packedProduct (W1 m ρ c (Proc.devRef .tc main_v8)) (W1 m ρ c (Proc.devRef .tc main_v7)) = _
  rw [W1_v8, W1_v7]

/-- The second product is entered with layer 1 of the features, packed … -/
theorem in2 : W3 m ρ c (Proc.devRef .tc main_v26) = pack (F := Ideal) (x1 m c) := by
  rw [W3_v26, src2, dst2, out1, packed_layer]
/-- … and the second weight on the block diagonal. -/
theorem wt2 : W3 m ρ c (Proc.devRef .tc main_v25) = blockDiag (F := Ideal) (m ((c : Thread nD τ).loc main_arg3)) := by
  rw [W3_v25, W2_arg3, W1_arg3]

/-! ## Layer 2 -/

theorem out2 : W4 m ρ c (Proc.devRef .tc main_v27) = packedProduct (pack (F := Ideal) (x1 m c)) (blockDiag (F := Ideal) (m ((c : Thread nD τ).loc main_arg3))) := by
  refine ((W4_arr m ρ c 2).trans (Region1.final (V3 m ρ) c)).trans ?_
  show packedProduct (W3 m ρ c (Proc.devRef .tc main_v26)) (W3 m ρ c (Proc.devRef .tc main_v25)) = _
  rw [in2, wt2]

theorem in3 : W5 m ρ c (Proc.devRef .tc main_v44) = pack (F := Ideal) (x2 m c) := by
  rw [W5_v44, src4, dst4, out2, packed_layer]
theorem wt3 : W5 m ρ c (Proc.devRef .tc main_v43) = blockDiag (F := Ideal) (m ((c : Thread nD τ).loc main_arg4)) := by
  rw [W5_v43, W4_arg4, W3_arg4, W2_arg4, W1_arg4]

/-! ## Layer 3 -/

theorem out3 : W6 m ρ c (Proc.devRef .tc main_v45) = packedProduct (pack (F := Ideal) (x2 m c)) (blockDiag (F := Ideal) (m ((c : Thread nD τ).loc main_arg4))) := by
  refine ((W6_arr m ρ c 2).trans (Region2.final (V5 m ρ) c)).trans ?_
  show packedProduct (W5 m ρ c (Proc.devRef .tc main_v44)) (W5 m ρ c (Proc.devRef .tc main_v43)) = _
  rw [in3, wt3]

/-- THE RESULT: the result buffer ends at the three layers composed. -/
theorem result : W7 m ρ c (Proc.devRef .tc main_v57) = x3 m c := by
  rw [W7_v57, src6, dst6, out3, packed_layer]

end Cert.KernelIdeal.Chain

end
-- ==== Proof.RefSide.lean ====
/-
  The reference, read as the same three layers.

  The reference program is, per layer, a plain `dot_general` of the node features with the weight, a gather of its
  rows by the wrapped source indices, and a scatter-add of the gathered rows into a zero array by the target
  indices. On the extended reals the `dot_general` at (r, c) is Σₖ x(r, k) · W(k, c) (the generated read-at-an-index
  lemma), which is `lin`; the gather and the scatter-add are the kernel program's own (the kernel's extra widening
  of the gathered rows from bf16 to f32 is the identity on extended reals). So the reference's result is the three
  layers composed.
-/
import proofs.«170709_j42339787604899_2_alg».proof.Proof.Gen.ReferenceIdeal.Read
import proofs.«170709_j42339787604899_2_alg».proof.Proof.Linear

noncomputable section

namespace Cert.RefSide

open Idealize.ShloMosaic Idealize.ShloMosaic.ValueIdx
open Cert.KernelIdeal.HostFns Cert.KernelIdeal.Linear
open Cert.ReferenceIdeal.Read

/-- The reference's `dot_general`, on the extended reals, is the plain product. -/
theorem dot_eq_lin (X : Cert.KernelIdeal.S100000x64.Idx → EReal) (W : Cert.KernelIdeal.S64x64.Idx → EReal) :
    val_main_v4 (F := Ideal) X W = lin X W := by
  funext i
  refine (val_main_v4_apply X W i).trans (Finset.sum_congr rfl fun k _ => ?_)
  have e1 : lidx_main_v4 i k = nodeIx ⟨(i 0).val, (i 0).isLt⟩ k := funext fun a => by
    match a with
    | ⟨0, _⟩ => rfl
    | ⟨1, _⟩ => rfl
  have e2 : ridx_main_v4 i k = wIx k ⟨(i 1).val, (i 1).isLt⟩ := funext fun a => by
    match a with
    | ⟨0, _⟩ => rfl
    | ⟨1, _⟩ => rfl
  rw [e1, e2]

/-- Widening gathered bf16 rows to f32 changes nothing on the extended reals. -/
theorem aggregate_eq (s d : (⟨Cert.KernelIdeal.S1200000, .i32⟩ : BufTy).Contents (Elt Ideal)) (h : Cert.KernelIdeal.S100000x64.Idx → EReal) :
    aggregate (F := Ideal) s d h
      = Host.scatterAdd Cert.KernelIdeal.scatter_S100000x64_S1200000x1_S1200000x64_1_0_0_1
          (broadcastInDim Cert.KernelIdeal.S100000x64 ![] Cert.KernelIdeal.Gen.bcast_S_S100000x64 (constant (F := Ideal) Cert.KernelIdeal.S_ .f32 0x00000000#32))
          (broadcastInDim Cert.KernelIdeal.S1200000x1 ![0] Cert.KernelIdeal.Gen.bcast_S1200000_S1200000x1_0 d)
          (Host.gather Cert.KernelIdeal.gather_S100000x64_S1200000x1_S1200000x64_1_0_n_n_0_1_164 h (srcCol s)) := rfl

/-- The reference's first layer. -/
theorem ref_layer1 (x0 : Cert.KernelIdeal.S100000x64.Idx → EReal) (x1 : (⟨Cert.KernelIdeal.S2x1200000, .i32⟩ : BufTy).Contents (Elt Ideal))
    (x2 : Cert.KernelIdeal.S64x64.Idx → EReal) :
    val_main_v14 (F := Ideal) x0 x1 x2 = layer (srcRow x1) (dstRow x1) x0 x2 := by
  unfold val_main_v14 val_main_v11
  rw [dot_eq_lin]
  rfl

/-- Its second layer. -/
theorem ref_layer2 (x0 : Cert.KernelIdeal.S100000x64.Idx → EReal) (x1 : (⟨Cert.KernelIdeal.S2x1200000, .i32⟩ : BufTy).Contents (Elt Ideal))
    (x2 x3 : Cert.KernelIdeal.S64x64.Idx → EReal) :
    val_main_v25 (F := Ideal) x0 x1 x2 x3 = layer (srcRow x1) (dstRow x1) (layer (srcRow x1) (dstRow x1) x0 x2) x3 := by
  unfold val_main_v25 val_main_v22
  rw [show val_main_v15 (F := Ideal) x0 x1 x2 x3 = val_main_v4 (F := Ideal) (val_main_v14 (F := Ideal) x0 x1 x2) x3 from rfl,
    ref_layer1, dot_eq_lin]
  rfl

/-- Its third layer: the result. -/
theorem ref_layer3 (x0 : Cert.KernelIdeal.S100000x64.Idx → EReal) (x1 : (⟨Cert.KernelIdeal.S2x1200000, .i32⟩ : BufTy).Contents (Elt Ideal))
    (x2 x3 x4 : Cert.KernelIdeal.S64x64.Idx → EReal) :
    val_main_v36 (F := Ideal) x0 x1 x2 x3 x4
      = layer (srcRow x1) (dstRow x1) (layer (srcRow x1) (dstRow x1) (layer (srcRow x1) (dstRow x1) x0 x2) x3) x4 := by
  unfold val_main_v36 val_main_v33
  rw [show val_main_v26 (F := Ideal) x0 x1 x2 x3 x4 = val_main_v4 (F := Ideal) (val_main_v25 (F := Ideal) x0 x1 x2 x3) x4 from rfl,
    ref_layer2, dot_eq_lin]
  rfl

end Cert.RefSide

end
-- ==== Proof.lean ====
/-
  A three-layer graph convolution (linear map, then sum of the neighbours' rows), kernel against reference, on
  the extended reals.

  Per layer the reference computes h = x · W (100000×64 by 64×64), gathers the rows of h named by the edges'
  sources and adds each into the row named by the edge's target. The kernel computes the same h differently: it
  views x as 50000×128 (two consecutive node rows per row), multiplies by the 128×128 matrix with W twice on the
  diagonal and zeros elsewhere — in ten row blocks of 5000, rounding operands and product to bf16 — and views the
  product as 100000×64 again; the gather and the scatter-add are the reference's, the gathered rows widened from
  bf16 to f32 on the way.

  On the extended reals a change of float format is the identity, and the packed product at (r, c) is a 128-term
  sum of which 64 terms are x(r, k) · W(k, c) and the other 64 are x(r', k) · 0 = 0 for the other node r' of the
  pair — an identity that holds for every extended real, so the precondition (finite inputs) is never opened. The
  two programs therefore compute, layer by layer, the same function: `layer s d x W` (Proof/Linear.lean), composed
  three times over the same source and target vectors.

  The modules: BlockDiag (the sum law), Payload (what one grid point stores), PackedProduct and Region0–2 (each
  product region's output array as one function), HostFns and HostReads (the host operations between the
  regions), Linear (packed product = plain product), Chain (the kernel program's result), RefSide (the reference's
  result), KernelRun (the kernel program's run with its result named).
-/
import proofs.«170709_j42339787604899_2_alg».proof.Defs
import proofs.«170709_j42339787604899_2_alg».proof.Proof.Gen.Kernel
import proofs.«170709_j42339787604899_2_alg».proof.Proof.Gen.Kernel.Skeleton
import proofs.«170709_j42339787604899_2_alg».proof.Proof.Gen.Kernel.Launch
import proofs.«170709_j42339787604899_2_alg».proof.Proof.Gen.Kernel.Points
import proofs.«170709_j42339787604899_2_alg».proof.Proof.Gen.Kernel.Frame
import proofs.«170709_j42339787604899_2_alg».proof.Proof.Gen.KernelIdeal
import proofs.«170709_j42339787604899_2_alg».proof.Proof.Gen.KernelIdeal.Skeleton
import proofs.«170709_j42339787604899_2_alg».proof.Proof.Gen.KernelIdeal.Launch
import proofs.«170709_j42339787604899_2_alg».proof.Proof.Gen.KernelIdeal.Points
import proofs.«170709_j42339787604899_2_alg».proof.Proof.Gen.KernelIdeal.Frame
import proofs.«170709_j42339787604899_2_alg».proof.Proof.Gen.ReferenceIdeal
import proofs.«170709_j42339787604899_2_alg».proof.Proof.Gen.ReferenceIdeal.Run
import proofs.«170709_j42339787604899_2_alg».proof.Proof.Gen.ReferenceIdeal.Read
import proofs.«170709_j42339787604899_2_alg».proof.Proof.Gen.Pre_finite_inputs
import proofs.«170709_j42339787604899_2_alg».proof.Proof.KernelRun
import proofs.«170709_j42339787604899_2_alg».proof.Proof.Chain
import proofs.«170709_j42339787604899_2_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- Both programs end with the three layers composed, of arguments that agree. -/
theorem algebraic : Cert.algebraic_KernelIdeal_ReferenceIdeal := by
  intro m ρ m' ρ' _ hagree
  refine ⟨fun c => Cert.KernelIdeal.Chain.x3 m c, ?_, ?_⟩
  · exact (θ_run Cert.KernelIdeal.defs _ _).mono
      (fun _ h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2.1, (hagree c).2.2.1, (hagree c).2.2.2.1,
      (hagree c).2.2.2.2, Cert.RefSide.ref_layer3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
